-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg9 : FVec F S128x12 .f32) (main_arg10 : FVec F S12 .f32) (main_v33 : IVec S_ 1) : IVec S_ 1 :=
  let main_v34 : FVec F S128x12 .f32 := Host.absf main_arg9
  let main_cst_12 : FVec F S_ .f32 := constant S_ .f32 0x7F800000#32
  let main_v35 : FVec F S128x12 .f32 := broadcastInDim S128x12 ![] bcast_S_S128x12 main_cst_12
  let main_v36 : IVec S128x12 1 := cmpf .olt main_v34 main_v35
  let main_c_13 : IVec S_ 1 := constantI S_ 1 1#1
  let main_v37 : IVec S_ 1 := (fun x v => Host.reduce IntOp.andi x v reducesTo_S128x12_S_d0_1 h_S_) main_v36 main_c_13
  let main_v38 : IVec S_ 1 := andi main_v33 main_v37
  let main_v39 : FVec F S12 .f32 := Host.absf main_arg10
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x12 .f32) (main_arg10 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x12 .f32) (main_arg10 : FVec F S12 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x12 : Shape := ⟨2, ![1, 12]⟩

abbrev nBuf : Space → Nat
  | .hbm => 124
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x12, .f32⟩
  | .hbm, ⟨10, _⟩ => ⟨S12, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x128, .f32⟩
  | .hbm, ⟨97, _⟩ => ⟨S850000x1, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S_, .f32⟩
  | .hbm, ⟨107, _⟩ => ⟨S128x128, .f32⟩
  | .hbm, ⟨108, _⟩ => ⟨S50000x1, .i32⟩
  | .hbm, ⟨109, _⟩ => ⟨S128x128, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S128, .f32⟩
  | .hbm, ⟨114, _⟩ => ⟨S50000x1, .i32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x128, .f32⟩
  | .hbm, ⟨121, _⟩ => ⟨S128x128, .f32⟩
  | .hbm, ⟨122, _⟩ => ⟨S1x12, .f32⟩
  | .hbm, ⟨123, _⟩ => ⟨S128x12, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x12, .f32⟩
  | .local _ .vmem, ⟨24, _⟩ => ⟨S1x12, .f32⟩
  | .local _ .vmem, ⟨25, _⟩ => ⟨S128x12, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x12 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x12 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S12_S1x12 : S12.ShapeCasts S1x12
  shapeCasts_S128x128_S128x128 : S128x128.ShapeCasts S128x128
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S128x12 : S1x12.Broadcasts S128x12
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x12_S128x12_1_0_0_1_n_n_wf : DotDims.WF S128x128 S128x12 S128x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x12.size a ≤ S128x12.size a
  hwx4_1 : ∀ i : grid4.Coords, EltTy.bits .f32 = 32 ∨ (Rect.block (s := S128x12) S128x12.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x12.size a ≤ S1x12.size a
  hwx4_2 : ∀ i : grid4.Coords, EltTy.bits .f32 = 32 ∨ (Rect.block (s := S1x12) S1x12.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x12.size a ≤ S128x12.size a
  hwx4_3 : ∀ i : grid4.Coords, EltTy.bits .f32 = 32 ∨ (Rect.block (s := S128x12) S128x12.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x12_S128x12_1_0_0_1_n_n : DotDims S128x128 S128x12 S128x12 where
  lhsContracting := [1]
  rhsContracting := [0]
  lhsNonContracting := [0]
  rhsNonContracting := [1]
  lhsBatch := []
  rhsBatch := []
  wf := dot_S128x128_S128x12_S128x12_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x12.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x12.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S128x12.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x12 : Shape := ⟨2, ![1, 12]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x12, .f32⟩
  | 10 => ⟨S12, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .f32⟩
  | 121 => ⟨S128x128, .f32⟩
  | 122 => ⟨S50000x1, .i32⟩
  | 123 => ⟨S128x128, .f32⟩
  | 124 => ⟨S_, .f32⟩
  | 125 => ⟨S50000, .f32⟩
  | 126 => ⟨S_, .f32⟩
  | 127 => ⟨S128, .f32⟩
  | _ => ⟨S50000x128, .f32⟩

abbrev hbmTy0_1 (i : Nat) : BufTy := match i % 128 with
  | 0 => ⟨S50000x1, .i32⟩
  | 1 => ⟨S128, .f32⟩
  | 2 => ⟨S_, .f32⟩
  | 3 => ⟨S128, .f32⟩
  | 4 => ⟨S128, .f32⟩
  | 5 => ⟨S128x1, .f32⟩
  | 6 => ⟨S128x128, .f32⟩
  | 7 => ⟨S128x128, .f32⟩
  | 8 => ⟨S128x12, .f32⟩
  | 9 => ⟨S1x12, .f32⟩
  | 10 => ⟨S128x12, .f32⟩
  | 11 => ⟨S128x12, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S12_S1x12_1 : S12.BroadcastsInDim S1x12 (![1] : Fin 1 → Fin S1x12.rank)
  bcast_S1x12_S128x12_0_1 : S1x12.BroadcastsInDim S128x12 (![0, 1] : Fin 2 → Fin S128x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x12_S128x12_1_0_0_1_n_n_wf : DotDims.WF S128x128 S128x12 S128x12 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x12_S128x12_1_0_0_1_n_n : DotDims S128x128 S128x12 S128x12 where
  lhsContracting := [1]
  rhsContracting := [0]
  lhsNonContracting := [0]
  rhsNonContracting := [1]
  lhsBatch := []
  rhsBatch := []
  wf := dot_S128x128_S128x12_S128x12_1_0_0_1_n_n_wf

class Facts : Prop extends Facts₀ where

variable [Facts]
-- ==== Proof.KernelRun.lean ====
/-
  The kernel program's run with its result array named.

  The program is five launched kernels among stretches of host operations.  Its buffers' contents are followed through
  the run as a fold: a stretch of host operations rewrites the buffers it computes, a launched kernel leaves each of its
  arrays at what its grid points wrote back.  Every weakly fair execution terminates without a fault with every buffer
  that outlives the launch at the last stage of that fold; read at the result buffer this names the result array, and
  read at an argument's buffer it gives the argument back unchanged.
-/
import proofs.«166641_j72748156059703_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last stage of the fold of the
    buffers' contents through the run, and every argument array as launched. -/
theorem run_named : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Named

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«166641_j72748156059703_1_alg».proof.Proof.LibPlainDot
import proofs.«166641_j72748156059703_1_alg».proof.Proof.LibBiasRow
import proofs.«166641_j72748156059703_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Glue.lean ====
/-
  The network as one composed function of its eleven arguments, and the reference program as that function.

  Both programs first turn the edge list into three edge-indexed arrays (source node, target node, and the product of the
  two end nodes' inverse square-root degrees, self-loops appended), and then repeat one step three times: a dense layer on
  the node rows followed by the edge aggregation (gather the rows at the edges' sources, scale each by the edge's
  coefficient, scatter-add at the edges' targets).  After the third aggregation come the last bias and floor at zero, the
  mean of the node rows over each graph, and the linear head.  The aggregation and the graph mean are the SAME host
  operations in both programs; they are named here once (`agg`, `pool`) and never opened.  The dense steps are the
  matrix product, the bias row added to every row and the floor at zero on matrices of extended reals.  The reference
  computes bias and floor after each product's aggregation; the network composed this way places them before the next
  product, which is the same composition read with the brackets moved, nothing more.
-/
import proofs.«166641_j72748156059703_1_alg».proof.Proof.RefReadPatched
import proofs.«166641_j72748156059703_1_alg».proof.Proof.LibRowStages

set_option maxRecDepth 16384

noncomputable section

namespace Cert.Gcn

open Idealize.ShloMosaic Idealize.ShloMosaic.TcCoe Cert.ReferenceIdeal Cert.ReferenceIdeal.Gen Cert.ReferenceIdeal.ReadP Cert.LibRowStages

section Glue

variable {F : FTy → Type} [FloatOps F]

/-- The edge aggregation of node rows `xw`: row `row e` of `xw` (a negative index wrapped once) scaled by `norm e`, summed
    into row `col e`, from the zero matrix. -/
def agg (xw : (⟨S50000x128, .f32⟩ : BufTy).Contents (Elt F)) (row col : (⟨S850000, .i32⟩ : BufTy).Contents (Elt F))
    (norm : (⟨S850000, .f32⟩ : BufTy).Contents (Elt F)) : (⟨S50000x128, .f32⟩ : BufTy).Contents (Elt F) :=
  Host.scatterAdd scatter_S50000x128_S850000x1_S850000x128_1_0_0_1 (val_main_v41 (F := F))
    (broadcastInDim S850000x1 ![0] bcast_S850000_S850000x1_0 col)
    (mulf (Host.gather gather_S50000x128_S850000x1_S850000x128_1_0_n_n_0_1_1128 xw
        (broadcastInDim S850000x1 ![0] bcast_S850000_S850000x1_0
          (select (cmpi .slt row (val_main_v31 (F := F))) (addi row (val_main_v33 (F := F))) row)))
      (broadcastInDim S850000x128 ![0, 1] bcast_S850000x1_S850000x128_0_1
        (broadcastInDim S850000x1 ![0] bcast_S850000_S850000x1_0 norm)))

/-- The mean of the node rows `h` over each graph: the rows summed into their graph's row, divided by the graph's node
    count floored at one. -/
def pool (h : (⟨S50000x128, .f32⟩ : BufTy).Contents (Elt F)) (batch : (⟨S50000, .i32⟩ : BufTy).Contents (Elt F)) :
    (⟨S128x128, .f32⟩ : BufTy).Contents (Elt F) :=
  Host.divf (Host.scatterAdd scatter_S128x128_S50000x1_S50000x128_1_0_0_1 (val_main_v84 (F := F))
      (broadcastInDim S50000x1 ![0] bcast_S50000_S50000x1_0 batch) h) (val_main_v94 (F := F) batch)

/-- The inverse square-root degree of a node, zero where the degree is not positive: the select of `jnp.where`, its
    scalar alternative converted and spread. -/
def dis (gt : (⟨S50000, .i1⟩ : BufTy).Contents (Elt F)) (rs : (⟨S50000, .f32⟩ : BufTy).Contents (Elt F)) (z : (⟨S_, .f32⟩ : BufTy).Contents (Elt F)) : (⟨S50000, .f32⟩ : BufTy).Contents (Elt F) :=
  select gt rs (broadcastInDim S50000 ![] bcast_S_S50000 (id z))

/-- The edge coefficient: the node factor `d` gathered at the edge's source times `d` gathered at its target (a negative
    index wrapped once). -/
def coeff (d : (⟨S50000, .f32⟩ : BufTy).Contents (Elt F)) (row col : (⟨S850000, .i32⟩ : BufTy).Contents (Elt F)) : (⟨S850000, .f32⟩ : BufTy).Contents (Elt F) :=
  mulf
    (Host.gather gather_S50000_S850000x1_S850000_n_0_n_n_0_1_1 d
      (broadcastInDim S850000x1 ![0] bcast_S850000_S850000x1_0
        (select (cmpi .slt row (val_main_v15 (F := F))) (addi row (val_main_v17 (F := F))) row)))
    (Host.gather gather_S50000_S850000x1_S850000_n_0_n_n_0_1_1 d
      (broadcastInDim S850000x1 ![0] bcast_S850000_S850000x1_0
        (select (cmpi .slt col (val_main_v22 (F := F))) (addi col (val_main_v24 (F := F))) col)))

/-- The reference's node factor and edge coefficient are these. -/
theorem ref_v14 (x1 : (⟨S2x800000, .i32⟩ : BufTy).Contents (Elt F)) :
    val_main_v14 (F := F) x1 = dis (val_main_v12 (F := F) x1) (val_main_v13 (F := F) x1) (val_main_cst_2 (F := F)) := rfl
theorem ref_v29 (x1 : (⟨S2x800000, .i32⟩ : BufTy).Contents (Elt F)) :
    val_main_v29 (F := F) x1 = coeff (val_main_v14 (F := F) x1) (val_main_v3 (F := F) x1) (val_main_v6 (F := F) x1) := rfl

end Glue

/-- A vector of 128 entries and one of 12 entries have as many entries as the one-row matrices they are placed as. -/
theorem cast128 : (⟨1, ![128]⟩ : Shape).ShapeCasts ⟨2, ![1, 128]⟩ := by decide
theorem cast12 : (⟨1, ![12]⟩ : Shape).ShapeCasts ⟨2, ![1, 12]⟩ := by decide

/-- A bias vector as a one-row matrix. -/
abbrev row128 (b : (⟨S128, .f32⟩ : BufTy).Contents (Elt Ideal)) : Mat 1 128 := shapeCast ⟨2, ![1, 128]⟩ b cast128
abbrev row12 (b : (⟨S12, .f32⟩ : BufTy).Contents (Elt Ideal)) : Mat 1 12 := shapeCast ⟨2, ![1, 12]⟩ b cast12

section Spec

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x12, .f32⟩ : BufTy).Contents (Elt Ideal))
  (x10 : (⟨S12, .f32⟩ : BufTy).Contents (Elt Ideal))

/-- The aggregation with the edge arrays of the edge list `x1`. -/
abbrev aggE (xw : Mat 50000 128) : Mat 50000 128 :=
  agg (F := Ideal) xw (val_main_v3 (F := Ideal) x1) (val_main_v6 (F := Ideal) x1) (val_main_v29 (F := Ideal) x1)

/-- The three aggregated layers, the pooled means and the head, composed. -/
def a0 : Mat 50000 128 := aggE x1 (mm (n := 50000) (k := 128) (d := 128) x0 x3)
def a1 : Mat 50000 128 := aggE x1 (mm (n := 50000) (k := 128) (d := 128) (relu (addRow (a0 x0 x1 x3) (row128 x4))) x5)
def a2 : Mat 50000 128 := aggE x1 (mm (n := 50000) (k := 128) (d := 128) (relu (addRow (a1 x0 x1 x3 x4 x5) (row128 x6))) x7)
def h3 : Mat 50000 128 := relu (addRow (a2 x0 x1 x3 x4 x5 x6 x7) (row128 x8))
def pooled : Mat 128 128 := pool (F := Ideal) (h3 x0 x1 x3 x4 x5 x6 x7 x8) x2
def spec : Mat 128 12 := addRow (mm (n := 128) (k := 128) (d := 12) (pooled x0 x1 x2 x3 x4 x5 x6 x7 x8) x9) (row12 x10)

/-! ## The reference's stages are these -/

theorem ref_v30 : val_main_v30 (F := Ideal) x0 x3 = mm (n := 50000) (k := 128) (d := 128) x0 x3 := by
  unfold val_main_v30
  exact dotGeneral_eq_mm (n := 50000) (k := 128) (d := 128) dot_S50000x128_S128x128_S50000x128_1_0_0_1_n_n rfl rfl rfl rfl rfl rfl none _ _

theorem ref_v43 : val_main_v43 (F := Ideal) x0 x1 x3 = a0 x0 x1 x3 := by
  unfold a0
  rw [← ref_v30]
  rfl

/-- Bias placed as a row and spread, added, floored against the spread zero, then the product: one dense step. -/
theorem dense_step (y : (⟨S50000x128, .f32⟩ : BufTy).Contents (Elt Ideal)) (b : (⟨S128, .f32⟩ : BufTy).Contents (Elt Ideal)) (w : (⟨S128x128, .f32⟩ : BufTy).Contents (Elt Ideal)) :
    Host.dotGeneral (φ₁ := .f32) (φ₂ := .f32) dot_S50000x128_S128x128_S50000x128_1_0_0_1_n_n none
      (maximumf (addf y (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))) w
      = mm (n := 50000) (k := 128) (d := 128) (relu (addRow y (row128 b))) w := by
  rw [dotGeneral_eq_mm (n := 50000) (k := 128) (d := 128) (φ₁ := .f32) (φ₂ := .f32) dot_S50000x128_S128x128_S50000x128_1_0_0_1_n_n rfl rfl rfl rfl rfl rfl none _ _,
    maximumf_hostZero_eq_relu (n := 50000) (k := 128) bcast_S_S50000x128,
    addf_hostBias_eq_addRow (n := 50000) (k := 128) bcast_S128_S1x128_1 bcast_S1x128_S50000x128_0_1 cast128]

theorem ref_v48 : val_main_v48 (F := Ideal) x0 x1 x3 x4 x5
    = mm (n := 50000) (k := 128) (d := 128) (relu (addRow (a0 x0 x1 x3) (row128 x4))) x5 := by
  rw [← ref_v43]
  exact dense_step (val_main_v43 (F := Ideal) x0 x1 x3) x4 x5

theorem ref_v61 : val_main_v61 (F := Ideal) x0 x1 x3 x4 x5 = a1 x0 x1 x3 x4 x5 := by
  unfold a1
  rw [← ref_v48]
  rfl

theorem ref_v66 : val_main_v66 (F := Ideal) x0 x1 x3 x4 x5 x6 x7
    = mm (n := 50000) (k := 128) (d := 128) (relu (addRow (a1 x0 x1 x3 x4 x5) (row128 x6))) x7 := by
  rw [← ref_v61]
  exact dense_step (val_main_v61 (F := Ideal) x0 x1 x3 x4 x5) x6 x7

theorem ref_v79 : val_main_v79 (F := Ideal) x0 x1 x3 x4 x5 x6 x7 = a2 x0 x1 x3 x4 x5 x6 x7 := by
  unfold a2
  rw [← ref_v66]
  rfl

theorem ref_v83 : val_main_v83 (F := Ideal) x0 x1 x3 x4 x5 x6 x7 x8 = h3 x0 x1 x3 x4 x5 x6 x7 x8 := by
  unfold h3
  rw [← ref_v79]
  show maximumf (addf (val_main_v79 (F := Ideal) x0 x1 x3 x4 x5 x6 x7)
      (broadcastInDim S50000x128 ![0, 1] bcast_S1x128_S50000x128_0_1 (broadcastInDim S1x128 ![1] bcast_S128_S1x128_1 x8)))
      (broadcastInDim S50000x128 ![] bcast_S_S50000x128 (constant (F := Ideal) S_ .f32 0x00000000#32)) = _
  rw [maximumf_hostZero_eq_relu (n := 50000) (k := 128) bcast_S_S50000x128,
    addf_hostBias_eq_addRow (n := 50000) (k := 128) bcast_S128_S1x128_1 bcast_S1x128_S50000x128_0_1 cast128]

theorem ref_v95 : val_main_v95 (F := Ideal) x0 x1 x2 x3 x4 x5 x6 x7 x8 = pooled x0 x1 x2 x3 x4 x5 x6 x7 x8 := by
  unfold pooled
  rw [← ref_v83]
  rfl

/-- The product with the head weights, then the head bias placed as a row, spread and added: the head step. -/
theorem head_step (p : (⟨S128x128, .f32⟩ : BufTy).Contents (Elt Ideal)) (w : (⟨S128x12, .f32⟩ : BufTy).Contents (Elt Ideal)) (b : (⟨S12, .f32⟩ : BufTy).Contents (Elt Ideal)) :
    addf (F := Ideal) (Host.dotGeneral (F := Ideal) (φ₁ := .f32) (φ₂ := .f32) dot_S128x128_S128x12_S128x12_1_0_0_1_n_n none p w)
      (broadcastInDim S128x12 ![0, 1] bcast_S1x12_S128x12_0_1 (broadcastInDim S1x12 ![1] bcast_S12_S1x12_1 b))
      = addRow (mm (n := 128) (k := 128) (d := 12) p w) (row12 b) := by
  rw [dotGeneral_eq_mm (n := 128) (k := 128) (d := 12) (φ₁ := .f32) (φ₂ := .f32) dot_S128x128_S128x12_S128x12_1_0_0_1_n_n rfl rfl rfl rfl rfl rfl none _ _,
    addf_hostBias_eq_addRow (n := 128) (k := 12) bcast_S12_S1x12_1 bcast_S1x12_S128x12_0_1 cast12]

/-- The reference's result is the composed function. -/
theorem ref_v99 : val_main_v99 (F := Ideal) x0 x1 x2 x3 x4 x5 x6 x7 x8 x9 x10 = spec x0 x1 x2 x3 x4 x5 x6 x7 x8 x9 x10 :=
  (head_step (val_main_v95 (F := Ideal) x0 x1 x2 x3 x4 x5 x6 x7 x8) x9 x10).trans
    (congrArg (fun p : Mat 128 128 => addRow (mm (n := 128) (k := 128) (d := 12) p x9) (row12 x10))
      (ref_v95 x0 x1 x2 x3 x4 x5 x6 x7 x8))

end Spec

end Cert.Gcn

end
-- ==== Proof.Keeps.lean ====
/-
  Which buffers each stretch of host operations leaves alone.

  A stretch of host operations rewrites exactly the buffers its operations compute; a launched kernel rewrites exactly
  its own arrays.  So a buffer computed early (the edge arrays, an argument) is read unchanged by every later stretch
  and kernel: its contents at a later stage of the run are its contents at the stage where it was last written.
-/
import proofs.«166641_j72748156059703_1_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem

variable {F : FTy → Type} [FloatOps F]

/-- The buffers `hostOps0`'s operations compute. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_1`'s operations compute. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_2`'s operations compute. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps1`'s operations compute. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps2`'s operations compute. -/
abbrev hostOps2_W : List (Ref sig .tc) := [main_c_9, main_v46, main_v47, main_c_10, main_v48, main_v49, main_v50, main_v51, main_v52, main_v53, main_v54, main_v55, main_cst_11, main_v56, main_v57, main_v58, main_v59]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps3`'s operations compute. -/
abbrev hostOps3_W : List (Ref sig .tc) := [main_c_12, main_v61, main_v62, main_c_13, main_v63, main_v64, main_v65, main_v66, main_v67, main_v68, main_v69, main_v70, main_cst_14, main_v71, main_v72, main_v73, main_v74]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps4`'s operations compute. -/
abbrev hostOps4_W : List (Ref sig .tc) := [main_cst_15, main_v76, main_v77, main_v78, main_cst_16, main_v79, main_cst_17, main_v80, main_v81, main_v82, main_cst_18, main_v83, main_v84, main_v85, main_v86, main_v87, main_v88]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## One step back through a stretch -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

/-! ## Several steps back -/

/-- A buffer none of the three opening stretches computes holds its launch contents when the first kernel is entered. -/
theorem W3_launch (c : Dev nD) (r : Ref sig .tc) (h2 : r ∉ hostOps0_2_W) (h1 : r ∉ hostOps0_1_W) (h0 : r ∉ hostOps0_W) :
    W3 m ρ c (Proc.devRef .tc r) = m ((c : Thread nD τ).loc r) :=
  (W3_of m ρ c r h2).trans ((W2_of m ρ c r h1).trans ((W1_of m ρ c r h0).trans rfl))

/-- Back through the first kernel and the stretch after it. -/
theorem W5_W3 (c : Dev nD) (r : Ref sig .tc) (h : r ∉ hostOps1_W) (h0 : ∀ w, Pipeline.arrRef spec0 w ≠ r) :
    W5 m ρ c (Proc.devRef .tc r) = W3 m ρ c (Proc.devRef .tc r) :=
  (W5_of m ρ c r h).trans (W4_of_ne m ρ c r h0)
/-- Back through the second kernel and the stretch after it. -/
theorem W7_W5 (c : Dev nD) (r : Ref sig .tc) (h : r ∉ hostOps2_W) (h0 : ∀ w, Pipeline.arrRef spec1 w ≠ r) :
    W7 m ρ c (Proc.devRef .tc r) = W5 m ρ c (Proc.devRef .tc r) :=
  (W7_of m ρ c r h).trans (W6_of_ne m ρ c r h0)
/-- Back through the third kernel and the stretch after it. -/
theorem W9_W7 (c : Dev nD) (r : Ref sig .tc) (h : r ∉ hostOps3_W) (h0 : ∀ w, Pipeline.arrRef spec2 w ≠ r) :
    W9 m ρ c (Proc.devRef .tc r) = W7 m ρ c (Proc.devRef .tc r) :=
  (W9_of m ρ c r h).trans (W8_of_ne m ρ c r h0)
/-- Back through the fourth kernel and the stretch after it. -/
theorem W11_W9 (c : Dev nD) (r : Ref sig .tc) (h : r ∉ hostOps4_W) (h0 : ∀ w, Pipeline.arrRef spec3 w ≠ r) :
    W11 m ρ c (Proc.devRef .tc r) = W9 m ρ c (Proc.devRef .tc r) :=
  (W11_of m ρ c r h).trans (W10_of_ne m ρ c r h0)

end Cert.KernelIdeal.Keeps

end
-- ==== Proof.Payloads.lean ====
/-
  What each of the five kernel bodies computes from the blocks it loads, on the extended reals.

  A change to a narrower float format changes no extended real, a matrix unit's product into the zero accumulator is the
  matrix product, a one-row bias spread over the rows and added is the bias row added to every row, and the maximum
  against a splat of the zero word is the floor at zero.  So the first body is the product of its two blocks; the second
  and third add the bias row to the block of node rows, floor at zero, and multiply by the weights; the fourth adds the
  bias row and floors at zero; the fifth multiplies the pooled rows by the head weights and adds the head bias row.
-/
import proofs.«166641_j72748156059703_1_alg».proof.Proof.Gen.KernelIdeal.Skeleton
import proofs.«166641_j72748156059703_1_alg».proof.Proof.LibRowStages
import Idealize.ShloMosaic.Lib.Pipeline.Value

noncomputable section

namespace Cert.Gcn.Payloads

open Idealize.ShloMosaic Cert.KernelIdeal Cert.KernelIdeal.Gen Cert.LibRowStages

/-- The first body: the block of feature rows times the weights. -/
theorem pay0 (x0 : Mat 5000 128) (x1 : Mat 128 128) : k0_pay1 (F := Ideal) x0 x1 = mm x0 x1 := by
  unfold k0_pay1
  exact matmul_eq_mm dot_S5000x128_S128x128_S5000x128_1_0_0_1_n_n rfl rfl rfl rfl rfl rfl none _ _

/-- The second body: bias row added to the block of aggregated rows, floored at zero, times the weights. -/
theorem pay1 (x0 : Mat 5000 128) (x2 : Mat 1 128) (x9 : Mat 128 128) :
    k1_pay1 (F := Ideal) x0 x2 x9 = mm (relu (addRow x0 x2)) x9 := by
  unfold k1_pay1
  simp only [shapeCast_self]
  refine (matmul_eq_mm dot_S5000x128_S128x128_S5000x128_1_0_0_1_n_n rfl rfl rfl rfl rfl rfl none _ _).trans ?_
  rw [truncf_eq, truncf_eq, maximumf_zero_eq_relu, addf_spread_eq_addRow]

/-- The third body is the second body's function. -/
theorem pay2 (x0 : Mat 5000 128) (x2 : Mat 1 128) (x9 : Mat 128 128) :
    k2_pay1 (F := Ideal) x0 x2 x9 = mm (relu (addRow x0 x2)) x9 := by
  unfold k2_pay1
  simp only [shapeCast_self]
  refine (matmul_eq_mm dot_S5000x128_S128x128_S5000x128_1_0_0_1_n_n rfl rfl rfl rfl rfl rfl none _ _).trans ?_
  rw [truncf_eq, truncf_eq, maximumf_zero_eq_relu, addf_spread_eq_addRow]

/-- The fourth body: bias row added to the block of aggregated rows, floored at zero. -/
theorem pay3 (x0 : Mat 5000 128) (x2 : Mat 1 128) : k3_pay1 (F := Ideal) x0 x2 = relu (addRow x0 x2) := by
  unfold k3_pay1
  simp only [shapeCast_self]
  rw [maximumf_zero_eq_relu, addf_spread_eq_addRow]

/-- The fifth body: the pooled rows times the head weights, plus the head bias row. -/
theorem pay4 (v0 : Mat 128 128) (v3 : Mat 128 12) (v6 : Mat 1 12) :
    k4_pay1 (F := Ideal) v0 v3 v6 = addRow (mm v0 v3) v6 := by
  unfold k4_pay1
  simp only [shapeCast_self]
  rw [matmul_eq_mm dot_S128x128_S128x12_S128x12_1_0_0_1_n_n rfl rfl rfl rfl rfl rfl none _ _, truncf_eq, truncf_eq,
    addf_spread_eq_addRow]

end Cert.Gcn.Payloads

end
-- ==== Proof.LibRowBlocks.lean ====
/-
  Row-wise stages on a block of rows, entry by entry.

  The matrix product, the bias row added to every row and the floor at zero (`mm`, `addRow`, `relu` on matrices of
  extended reals) each compute an entry of their result from one row of the matrix operand.  So an entry of a stage
  applied to a block of rows is the entry of the stage applied to the whole matrix, at the row of the whole matrix the
  block's row is: for the product when the two rows agree entry by entry and the weight columns agree, for the bias row
  when the two matrix entries agree and the two bias entries of that column agree, for the floor when the entries agree.
  Nothing is distributed or cancelled, so these hold at the infinities.  They are what a kernel that walks a matrix in
  blocks of rows needs at a grid point: the block's entry on the left, the whole array's on the right.
-/
import proofs.«166641_j72748156059703_1_alg».proof.Proof.LibRowStages

noncomputable section

open scoped BigOperators

namespace Cert.LibRowBlocks

open Idealize.ShloMosaic Idealize.ShloMosaic.ValueIdx Cert.LibRowStages

/-- Two index pairs with equal coordinates are equal. -/
theorem ix2_congr {a b : ℕ} {p p' : Fin a} {q q' : Fin b} (hp : p = p') (hq : q = q') : ix2 p q = ix2 p' q' := by
  subst hp hq; rfl

/-- An entry of a product of blocks is the entry of the product of the whole matrices, when the block's row is the
    matrix's row and the weight columns agree. -/
theorem mm_block {n k d N : ℕ} (xb : Mat n k) (wb : Mat k d) (X : Mat N k) (W : Mat k d)
    (j : (⟨2, ![n, d]⟩ : Shape).Idx) (i : (⟨2, ![N, d]⟩ : Shape).Idx)
    (hx : ∀ q : Fin k, xb (ix2 (j 0) q) = X (ix2 (i 0) q)) (hw : ∀ q : Fin k, wb (ix2 q (j 1)) = W (ix2 q (i 1))) :
    mm xb wb j = mm X W i :=
  Finset.sum_congr rfl fun q _ => by rw [hx q, hw q]

/-- An entry of a block plus the bias row is the entry of the whole matrix plus the bias row, when the two matrix
    entries agree and so do the two bias entries of that column. -/
theorem addRow_entry {n k N : ℕ} (xb : Mat n k) (bb : Mat 1 k) (X : Mat N k) (B : Mat 1 k)
    (j : (⟨2, ![n, k]⟩ : Shape).Idx) (i : (⟨2, ![N, k]⟩ : Shape).Idx)
    (hx : xb j = X i) (hb : bb (ix2 (0 : Fin 1) (j 1)) = B (ix2 (0 : Fin 1) (i 1))) : addRow xb bb j = addRow X B i := by
  show xb j + bb (ix2 (0 : Fin 1) (j 1)) = X i + B (ix2 (0 : Fin 1) (i 1))
  rw [hx, hb]

/-- The floor at zero of equal entries. -/
theorem relu_entry {n k N : ℕ} (a : Mat n k) (A : Mat N k) (j : (⟨2, ![n, k]⟩ : Shape).Idx) (i : (⟨2, ![N, k]⟩ : Shape).Idx)
    (h : a j = A i) : relu a j = relu A i := by
  show max (a j) floor0 = max (A i) floor0
  rw [h]

end Cert.LibRowBlocks

end
-- ==== Proof.Region0.lean ====
/-
  The first launched kernel, as one function of whole arrays.

  The kernel walks the 50000 feature rows in ten blocks of 5000 rows; every grid point sees the whole 128 x 128 weight
  matrix.  Point t computes the product of rows 5000 t ... 5000 t + 4999 with the weights and writes it back as the same
  rows of the result.  A row of a matrix product depends on that row of the left factor only, so the block written at
  point t is rows 5000 t ... 5000 t + 4999 of the product of the whole feature matrix with the weights; the ten blocks
  tile the result (row r is in block r / 5000), so the result array ends holding that product.
-/
import proofs.«166641_j72748156059703_1_alg».proof.Proof.Gen.KernelIdeal.Frame
import proofs.«166641_j72748156059703_1_alg».proof.Proof.Payloads
import proofs.«166641_j72748156059703_1_alg».proof.Proof.LibRowBlocks
import Idealize.ShloMosaic.Lib.Pipeline.Value

set_option maxRecDepth 16384

noncomputable section

namespace Cert.Gcn.Region0

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the features and of the result move with the point, the weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array result: the feature matrix times the weights. -/
abbrev G (c : Dev nD) : Mat 50000 128 := mm (V c main_arg0 : Mat 50000 128) (V c main_arg3 : Mat 128 128)

/-- What point t writes back is block t of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Cert.Gcn.Payloads.pay0]
  obtain ⟨e0, e1, e2, e3, e4, e5⟩ := idx t
  funext j
  show mm (iblk0 V c 0 t) (iblk0 V c 1 t) j = mm (V c main_arg0 : Mat 50000 128) (V c main_arg3 : Mat 128 128) (((cfg0.win 2).blk t).view.emb j)
  refine mm_block (iblk0 V c 0 t) (iblk0 V c 1 t) (V c main_arg0 : Mat 50000 128) (V c main_arg3 : Mat 128 128) j _ (fun q => ?_) (fun q => ?_)
  · show V c main_arg0 (((cfg0.win 0).blk t).view.emb (ix2 (j 0) q)) = V c main_arg0 (ix2 ((((cfg0.win 2).blk t).view.emb j) 0) q)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  · show V c main_arg3 (((cfg0.win 1).blk t).view.emb (ix2 q (j 1))) = V c main_arg3 (ix2 q ((((cfg0.win 2).blk t).view.emb j) 1))
    refine congrArg (V c main_arg3) (funext fun a => Fin.ext ?_)
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result is in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The result array after the kernel: the whole feature matrix times the weights. -/
theorem arr (c : Dev nD) : (dat0 V c).arrAt 2 cfg0.N = G V c :=
  (dat0 V c).arrAt_eq_of_cover 2 (G V c) (fun t _ => flushed_eq V c t) (cover)

end Cert.Gcn.Region0

end
-- ==== Proof.Region1.lean ====
/-
  Launched kernel 2, as one function of whole arrays.

  The kernel walks the 50000 aggregated node rows in ten blocks of 5000 rows; every grid point sees the whole bias row and
  the whole 128 x 128 weight matrix.  Point t adds the bias row to rows 5000 t ... 5000 t + 4999, floors them at zero,
  multiplies by the weights and writes the product back as the same rows of the result.  Each of the three steps computes
  a row of its result from that row of its operand only, so the block written at point t is rows 5000 t ... 5000 t + 4999
  of the same three steps applied to the whole matrix; the ten blocks tile the result (row r is in block r / 5000).
-/
import proofs.«166641_j72748156059703_1_alg».proof.Proof.Gen.KernelIdeal.Frame
import proofs.«166641_j72748156059703_1_alg».proof.Proof.Payloads
import proofs.«166641_j72748156059703_1_alg».proof.Proof.LibRowBlocks
import Idealize.ShloMosaic.Lib.Pipeline.Value

set_option maxRecDepth 16384

noncomputable section

namespace Cert.Gcn.Region1

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the node rows and of the result move with the point, the bias row
    and the weights stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array result: bias row added to every node row, floored at zero, times the weights. -/
abbrev G (c : Dev nD) : Mat 50000 128 :=
  mm (relu (addRow (V c main_v43 : Mat 50000 128) (V c main_v44 : Mat 1 128))) (V c main_arg5 : Mat 128 128)

/-- What point t writes back is block t of the whole result. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [Cert.Gcn.Payloads.pay1]
  obtain ⟨e0, e1, e2, e3, e4, e5, e6, e7⟩ := idx t
  funext j
  show mm (relu (addRow (iblk1 V c 0 t) (iblk1 V c 1 t))) (iblk1 V c 2 t) j
    = mm (relu (addRow (V c main_v43 : Mat 50000 128) (V c main_v44 : Mat 1 128))) (V c main_arg5 : Mat 128 128) (((cfg1.win 3).blk t).view.emb j)
  refine mm_block (relu (addRow (iblk1 V c 0 t) (iblk1 V c 1 t))) (iblk1 V c 2 t)
    (relu (addRow (V c main_v43 : Mat 50000 128) (V c main_v44 : Mat 1 128))) (V c main_arg5 : Mat 128 128) j _ (fun q => ?_) (fun q => ?_)
  · refine relu_entry _ _ _ _ (addRow_entry (iblk1 V c 0 t) (iblk1 V c 1 t) (V c main_v43 : Mat 50000 128) (V c main_v44 : Mat 1 128) _ _ ?_ ?_)
    · show V c main_v43 (((cfg1.win 0).blk t).view.emb (ix2 (j 0) q)) = V c main_v43 (ix2 ((((cfg1.win 3).blk t).view.emb j) 0) q)
      refine congrArg (V c main_v43) (funext fun a => Fin.ext ?_)
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * q.val = q.val; omega
    · show V c main_v44 (((cfg1.win 1).blk t).view.emb (ix2 (0 : Fin 1) q)) = V c main_v44 (ix2 (0 : Fin 1) q)
      refine congrArg (V c main_v44) (funext fun a => Fin.ext ?_)
      match a with
      | ⟨0, _⟩ => show win1_1.index t (0 : Fin 2) * 1 + 1 * 0 = 0; omega
      | ⟨1, _⟩ => show win1_1.index t (1 : Fin 2) * 128 + 1 * q.val = q.val; omega
  · show V c main_arg5 (((cfg1.win 2).blk t).view.emb (ix2 q (j 1))) = V c main_arg5 (ix2 q ((((cfg1.win 3).blk t).view.emb j) 1))
    refine congrArg (V c main_arg5) (funext fun a => Fin.ext ?_)
    match a with
    | ⟨0, _⟩ => show win1_2.index t (0 : Fin 2) * 128 + 1 * q.val = q.val; omega
    | ⟨1, _⟩ => show win1_2.index t (1 : Fin 2) * 128 + 1 * (j 1).val = win1_3.index t (1 : Fin 2) * 128 + 1 * (j 1).val; omega

/-- An index of the result is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row r of the result is in the block of point r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e6, e7⟩ := idx ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [mem_blk]
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 128 ≤ (i 1).val ∧ (i 1).val < win1_3.index ⟨(i 0).val / 5000, ht⟩ (1 : Fin 2) * 128 + 128; omega

/-- The result array after the kernel. -/
theorem arr (c : Dev nD) : (dat1 V c).arrAt 3 cfg1.N = G V c :=
  (dat1 V c).arrAt_eq_of_cover 3 (G V c) (fun t _ => flushed_eq V c t) (cover)

end Cert.Gcn.Region1

end
-- ==== Proof.Region2.lean ====
/-
  Launched kernel 3, as one function of whole arrays.

  The kernel walks the 50000 aggregated node rows in ten blocks of 5000 rows; every grid point sees the whole bias row and
  the whole 128 x 128 weight matrix.  Point t adds the bias row to rows 5000 t ... 5000 t + 4999, floors them at zero,
  multiplies by the weights and writes the product back as the same rows of the result.  Each of the three steps computes
  a row of its result from that row of its operand only, so the block written at point t is rows 5000 t ... 5000 t + 4999
  of the same three steps applied to the whole matrix; the ten blocks tile the result (row r is in block r / 5000).
-/
import proofs.«166641_j72748156059703_1_alg».proof.Proof.Gen.KernelIdeal.Frame
import proofs.«166641_j72748156059703_1_alg».proof.Proof.Payloads
import proofs.«166641_j72748156059703_1_alg».proof.Proof.LibRowBlocks
import Idealize.ShloMosaic.Lib.Pipeline.Value

set_option maxRecDepth 16384

noncomputable section

namespace Cert.Gcn.Region2

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the node rows and of the result move with the point, the bias row
    and the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole-array result: bias row added to every node row, floored at zero, times the weights. -/
abbrev G (c : Dev nD) : Mat 50000 128 :=
  mm (relu (addRow (V c main_v58 : Mat 50000 128) (V c main_v59 : Mat 1 128))) (V c main_arg7 : Mat 128 128)

/-- What point t writes back is block t of the whole result. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  rw [Cert.Gcn.Payloads.pay2]
  obtain ⟨e0, e1, e2, e3, e4, e5, e6, e7⟩ := idx t
  funext j
  show mm (relu (addRow (iblk2 V c 0 t) (iblk2 V c 1 t))) (iblk2 V c 2 t) j
    = mm (relu (addRow (V c main_v58 : Mat 50000 128) (V c main_v59 : Mat 1 128))) (V c main_arg7 : Mat 128 128) (((cfg2.win 3).blk t).view.emb j)
  refine mm_block (relu (addRow (iblk2 V c 0 t) (iblk2 V c 1 t))) (iblk2 V c 2 t)
    (relu (addRow (V c main_v58 : Mat 50000 128) (V c main_v59 : Mat 1 128))) (V c main_arg7 : Mat 128 128) j _ (fun q => ?_) (fun q => ?_)
  · refine relu_entry _ _ _ _ (addRow_entry (iblk2 V c 0 t) (iblk2 V c 1 t) (V c main_v58 : Mat 50000 128) (V c main_v59 : Mat 1 128) _ _ ?_ ?_)
    · show V c main_v58 (((cfg2.win 0).blk t).view.emb (ix2 (j 0) q)) = V c main_v58 (ix2 ((((cfg2.win 3).blk t).view.emb j) 0) q)
      refine congrArg (V c main_v58) (funext fun a => Fin.ext ?_)
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 128 + 1 * q.val = q.val; omega
    · show V c main_v59 (((cfg2.win 1).blk t).view.emb (ix2 (0 : Fin 1) q)) = V c main_v59 (ix2 (0 : Fin 1) q)
      refine congrArg (V c main_v59) (funext fun a => Fin.ext ?_)
      match a with
      | ⟨0, _⟩ => show win2_1.index t (0 : Fin 2) * 1 + 1 * 0 = 0; omega
      | ⟨1, _⟩ => show win2_1.index t (1 : Fin 2) * 128 + 1 * q.val = q.val; omega
  · show V c main_arg7 (((cfg2.win 2).blk t).view.emb (ix2 q (j 1))) = V c main_arg7 (ix2 q ((((cfg2.win 3).blk t).view.emb j) 1))
    refine congrArg (V c main_arg7) (funext fun a => Fin.ext ?_)
    match a with
    | ⟨0, _⟩ => show win2_2.index t (0 : Fin 2) * 128 + 1 * q.val = q.val; omega
    | ⟨1, _⟩ => show win2_2.index t (1 : Fin 2) * 128 + 1 * (j 1).val = win2_3.index t (1 : Fin 2) * 128 + 1 * (j 1).val; omega

/-- An index of the result is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

/-- Row r of the result is in the block of point r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, e6, e7⟩ := idx ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_blk]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 128 ≤ (i 1).val ∧ (i 1).val < win2_3.index ⟨(i 0).val / 5000, ht⟩ (1 : Fin 2) * 128 + 128; omega

/-- The result array after the kernel. -/
theorem arr (c : Dev nD) : (dat2 V c).arrAt 3 cfg2.N = G V c :=
  (dat2 V c).arrAt_eq_of_cover 3 (G V c) (fun t _ => flushed_eq V c t) (cover)

end Cert.Gcn.Region2

end
-- ==== Proof.Region3.lean ====
/-
  The fourth launched kernel, as one function of whole arrays.

  The kernel walks the 50000 aggregated node rows in ten blocks of 5000 rows; every grid point sees the whole bias row.
  Point t adds the bias row to rows 5000 t ... 5000 t + 4999, floors them at zero and writes them back as the same rows of
  the result.  Both steps work entry by entry, so the block written at point t is those rows of the two steps applied to
  the whole matrix; the ten blocks tile the result (row r is in block r / 5000).
-/
import proofs.«166641_j72748156059703_1_alg».proof.Proof.Gen.KernelIdeal.Frame
import proofs.«166641_j72748156059703_1_alg».proof.Proof.Payloads
import proofs.«166641_j72748156059703_1_alg».proof.Proof.LibRowBlocks
import Idealize.ShloMosaic.Lib.Pipeline.Value

set_option maxRecDepth 16384

noncomputable section

namespace Cert.Gcn.Region3

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the node rows and of the result move with the point, the bias row stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole-array result: bias row added to every node row, floored at zero. -/
abbrev G (c : Dev nD) : Mat 50000 128 := relu (addRow (V c main_v73 : Mat 50000 128) (V c main_v74 : Mat 1 128))

/-- What point t writes back is block t of the whole result. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  rw [Cert.Gcn.Payloads.pay3]
  obtain ⟨e0, e1, e2, e3, e4, e5⟩ := idx t
  funext j
  show relu (addRow (iblk3 V c 0 t) (iblk3 V c 1 t)) j
    = relu (addRow (V c main_v73 : Mat 50000 128) (V c main_v74 : Mat 1 128)) (((cfg3.win 2).blk t).view.emb j)
  refine relu_entry _ _ _ _ (addRow_entry (iblk3 V c 0 t) (iblk3 V c 1 t) (V c main_v73 : Mat 50000 128) (V c main_v74 : Mat 1 128) j _ ?_ ?_)
  · show V c main_v73 (((cfg3.win 0).blk t).view.emb j) = V c main_v73 (((cfg3.win 2).blk t).view.emb j)
    refine congrArg (V c main_v73) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v74 (((cfg3.win 1).blk t).view.emb (ix2 (0 : Fin 1) (j 1))) = V c main_v74 (ix2 (0 : Fin 1) ((((cfg3.win 2).blk t).view.emb j) 1))
    refine congrArg (V c main_v74) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the result is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v75).slice (win3_2.rect t)).set ↔ _
  rw [View.set_slice_whole, Rect.mem_set_unit]
  exact Iff.rfl

/-- Row r of the result is in the block of point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, e4, e5⟩ := idx ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 128 ≤ (i 1).val ∧ (i 1).val < win3_2.index ⟨(i 0).val / 5000, ht⟩ (1 : Fin 2) * 128 + 128; omega

/-- The result array after the kernel. -/
theorem arr (c : Dev nD) : (dat3 V c).arrAt 2 cfg3.N = G V c :=
  (dat3 V c).arrAt_eq_of_cover 2 (G V c) (fun t _ => flushed_eq V c t) (cover)

end Cert.Gcn.Region3

end
-- ==== Proof.Region4.lean ====
/-
  The fifth launched kernel, as one function of whole arrays.

  The kernel has one grid point, which sees the whole 128 x 128 matrix of pooled rows, the whole 128 x 12 head weights and
  the whole head bias row: it multiplies, adds the bias row and writes the 128 x 12 result back whole.  The one block is
  the array, so the result array ends holding the product plus the bias row.
-/
import proofs.«166641_j72748156059703_1_alg».proof.Proof.Gen.KernelIdeal.Frame
import proofs.«166641_j72748156059703_1_alg».proof.Proof.Payloads
import proofs.«166641_j72748156059703_1_alg».proof.Proof.LibRowBlocks
import Idealize.ShloMosaic.Lib.Pipeline.Value

set_option maxRecDepth 16384

noncomputable section

namespace Cert.Gcn.Region4

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The index maps at the one point: every block is the block at the origin. -/
theorem idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The whole-array result: the pooled rows times the head weights, plus the head bias row. -/
abbrev G (c : Dev nD) : Mat 128 12 :=
  addRow (mm (V c main_v87 : Mat 128 128) (V c main_arg9 : Mat 128 12)) (V c main_v88 : Mat 1 12)

/-- What the one point writes back is the whole result. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S128x128) hz, View.ld_unit_zero (S := S128x12) hz, View.ld_unit_zero (S := S1x12) hz]
  rw [Cert.Gcn.Payloads.pay4]
  obtain ⟨e0, e1, e2, e3, e4, e5, e6, e7⟩ := idx t
  funext j
  show addRow (mm (iblk4 V c 0 t) (iblk4 V c 1 t)) (iblk4 V c 2 t) j
    = addRow (mm (V c main_v87 : Mat 128 128) (V c main_arg9 : Mat 128 12)) (V c main_v88 : Mat 1 12) (((cfg4.win 3).blk t).view.emb j)
  refine addRow_entry (mm (iblk4 V c 0 t) (iblk4 V c 1 t)) (iblk4 V c 2 t) (mm (V c main_v87 : Mat 128 128) (V c main_arg9 : Mat 128 12)) (V c main_v88 : Mat 1 12) j _
    (mm_block (iblk4 V c 0 t) (iblk4 V c 1 t) (V c main_v87 : Mat 128 128) (V c main_arg9 : Mat 128 12) j _ (fun q => ?_) (fun q => ?_)) ?_
  · show V c main_v87 (((cfg4.win 0).blk t).view.emb (ix2 (j 0) q)) = V c main_v87 (ix2 ((((cfg4.win 3).blk t).view.emb j) 0) q)
    refine congrArg (V c main_v87) (funext fun a => Fin.ext ?_)
    match a with
    | ⟨0, _⟩ => show win4_0.index t (0 : Fin 2) * 128 + 1 * (j 0).val = win4_3.index t (0 : Fin 2) * 128 + 1 * (j 0).val; omega
    | ⟨1, _⟩ => show win4_0.index t (1 : Fin 2) * 128 + 1 * q.val = q.val; omega
  · show V c main_arg9 (((cfg4.win 1).blk t).view.emb (ix2 q (j 1))) = V c main_arg9 (ix2 q ((((cfg4.win 3).blk t).view.emb j) 1))
    refine congrArg (V c main_arg9) (funext fun a => Fin.ext ?_)
    match a with
    | ⟨0, _⟩ => show win4_1.index t (0 : Fin 2) * 128 + 1 * q.val = q.val; omega
    | ⟨1, _⟩ => show win4_1.index t (1 : Fin 2) * 12 + 1 * (j 1).val = win4_3.index t (1 : Fin 2) * 12 + 1 * (j 1).val; omega
  · show V c main_v88 (((cfg4.win 2).blk t).view.emb (ix2 (0 : Fin 1) (j 1))) = V c main_v88 (ix2 (0 : Fin 1) ((((cfg4.win 3).blk t).view.emb j) 1))
    refine congrArg (V c main_v88) (funext fun a => Fin.ext ?_)
    match a with
    | ⟨0, _⟩ => show win4_2.index t (0 : Fin 2) * 1 + 1 * 0 = 0; omega
    | ⟨1, _⟩ => show win4_2.index t (1 : Fin 2) * 12 + 1 * (j 1).val = win4_3.index t (1 : Fin 2) * 12 + 1 * (j 1).val; omega

/-- An index of the result is in the point's block iff each coordinate is in the block's range on its axis. -/
theorem mem_blk (t : Fin cfg4.N) (i : S128x12.Idx) :
    i ∈ ((cfg4.win 3).blk t).view.set ↔ ∀ a : Fin 2, win4_3.index t a * S128x12.size a ≤ (i a).val ∧ (i a).val < win4_3.index t a * S128x12.size a + S128x12.size a := by
  show i ∈ ((View.whole main_v89).slice (win4_3.rect t)).set ↔ _
  rw [View.set_slice_whole, Rect.mem_set_unit]
  exact Iff.rfl

/-- Every index of the result is in the one point's block. -/
theorem cover (i : S128x12.Idx) : ∃ t : Fin cfg4.N, (cfg4.win 3).flush t = true ∧ i ∈ ((cfg4.win 3).blk t).view.set := by
  have hi0 : (i 0).val < 128 := (i 0).isLt
  have hi1 : (i 1).val < 12 := (i 1).isLt
  obtain ⟨-, -, -, -, -, -, e6, e7⟩ := idx t4_0
  refine ⟨t4_0, flush4_3 _, ?_⟩
  rw [mem_blk]
  intro a
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 12 ≤ (i 1).val ∧ (i 1).val < win4_3.index t4_0 (1 : Fin 2) * 12 + 12; omega

/-- The result array after the kernel. -/
theorem arr (c : Dev nD) : (dat4 V c).arrAt 3 cfg4.N = G V c :=
  (dat4 V c).arrAt_eq_of_cover 3 (G V c) (fun t _ => flushed_eq V c t) (cover)

end Cert.Gcn.Region4

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.KernelValue.lean ====
/-
  The kernel program's result array is the composed function of the arguments.

  The contents of the program's buffers are followed stage by stage.  The three opening stretches of host operations
  compute the edge arrays from the edge list; they are the operations the reference applies, so the arrays are the
  reference's.  Each launched kernel leaves its result array at its dense step applied to the whole arrays it reads; each
  stretch between two kernels applies the edge aggregation to the kernel's result and places the next bias vector as a
  row; the last stretch pools the node rows over the graphs.  The edge arrays and the arguments are read unchanged at
  every later stage.  Composing the stages gives the result buffer after the fifth kernel.
-/
import proofs.«166641_j72748156059703_1_alg».proof.Proof.Gen.KernelIdeal.Frame
import proofs.«166641_j72748156059703_1_alg».proof.Proof.Keeps
import proofs.«166641_j72748156059703_1_alg».proof.Proof.Region0
import proofs.«166641_j72748156059703_1_alg».proof.Proof.Region1
import proofs.«166641_j72748156059703_1_alg».proof.Proof.Region2
import proofs.«166641_j72748156059703_1_alg».proof.Proof.Region3
import proofs.«166641_j72748156059703_1_alg».proof.Proof.Region4
import proofs.«166641_j72748156059703_1_alg».proof.Proof.Glue
import proofs.«166641_j72748156059703_1_alg».proof.Proof.LibConcatCongr
import Idealize.ShloMosaic.Lib.StableHlo.Run

set_option maxRecDepth 16384

noncomputable section

namespace Cert.Gcn.KernelValue

open Cert.KernelIdeal Cert.KernelIdeal.Gen Cert.KernelIdeal.Keeps
open Idealize.ShloMosaic Idealize.ShloMosaic.TcCoe Idealize.SL.Sem Idealize.ShloMosaic.StableHlo
open Cert.LibRowStages Cert.ReferenceIdeal.ReadP

/-! ## Each stretch of host operations, from any contents `U` -/

section Stretches

-- the one-pass read of a stretch enters the two pieces of a concatenation
attribute [local congr] Cert.LibConcatCongr.concatenate_pair_congr

variable (U : Valuation τ sig (Elt Ideal))

/-- The opening stretch computes the edges' source nodes from the edge list. -/
theorem open_row : (StableHlo.after hostOps0 U (Proc.devRef .tc main_v3) : (⟨S850000, .i32⟩ : BufTy).Contents (Elt Ideal))
    = val_main_v3 (F := Ideal) (U (Proc.devRef .tc main_arg1)) := by
  after_results
  rfl

/-- The opening stretch computes the edges' target nodes from the edge list. -/
theorem open_col : (StableHlo.after hostOps0 U (Proc.devRef .tc main_v6) : (⟨S850000, .i32⟩ : BufTy).Contents (Elt Ideal))
    = val_main_v6 (F := Ideal) (U (Proc.devRef .tc main_arg1)) := by
  after_results
  rfl

set_option maxHeartbeats 4000000 in
/-- The opening stretch computes, node by node, whether the degree is positive, -/
theorem open_gt : (StableHlo.after hostOps0 U (Proc.devRef .tc main_v12) : (⟨S50000, .i1⟩ : BufTy).Contents (Elt Ideal))
    = val_main_v12 (F := Ideal) (U (Proc.devRef .tc main_arg1)) := by
  after_results_simp
  rfl

set_option maxHeartbeats 4000000 in
/-- the degree's inverse square root, -/
theorem open_rs : (StableHlo.after hostOps0 U (Proc.devRef .tc main_v13) : (⟨S50000, .f32⟩ : BufTy).Contents (Elt Ideal))
    = val_main_v13 (F := Ideal) (U (Proc.devRef .tc main_arg1)) := by
  after_results_simp
  rfl

/-- and the scalar zero. -/
theorem open_zero : (StableHlo.after hostOps0 U (Proc.devRef .tc main_cst_2) : (⟨S_, .f32⟩ : BufTy).Contents (Elt Ideal))
    = val_main_cst_2 (F := Ideal) := by
  after_results
  rfl

/-- The second stretch selects between them: the node factor. -/
theorem where_dis : (StableHlo.after hostOps0_1 U (Proc.devRef .tc main_v14) : (⟨S50000, .f32⟩ : BufTy).Contents (Elt Ideal))
    = dis (F := Ideal) (U (Proc.devRef .tc main_v12)) (U (Proc.devRef .tc main_v13)) (U (Proc.devRef .tc main_cst_2)) := by
  after_results_simp
  rfl

set_option maxHeartbeats 4000000 in
/-- The third stretch gathers the node factor at both ends of every edge and multiplies: the edge coefficient. -/
theorem edge_coeff : (StableHlo.after hostOps0_2 U (Proc.devRef .tc main_v29) : (⟨S850000, .f32⟩ : BufTy).Contents (Elt Ideal))
    = coeff (F := Ideal) (U (Proc.devRef .tc main_v14)) (U (Proc.devRef .tc main_v3)) (U (Proc.devRef .tc main_v6)) := by
  after_results_simp
  rfl

set_option maxHeartbeats 4000000 in
/-- The stretch after kernel 1 aggregates the kernel's result along the edges. -/
theorem step_agg1 : (StableHlo.after hostOps1 U (Proc.devRef .tc main_v43) : (⟨S50000x128, .f32⟩ : BufTy).Contents (Elt Ideal))
    = agg (F := Ideal) (U (Proc.devRef .tc main_v30)) (U (Proc.devRef .tc main_v3)) (U (Proc.devRef .tc main_v6)) (U (Proc.devRef .tc main_v29)) := by
  after_results_simp
  rfl

/-- The stretch after kernel 1 places the next bias vector as a row. -/
theorem step_bias1 : (StableHlo.after hostOps1 U (Proc.devRef .tc main_v44) : Mat 1 128) = row128 (U (Proc.devRef .tc main_arg4)) := by
  after_results
  rfl

set_option maxHeartbeats 4000000 in
/-- The stretch after kernel 2 aggregates the kernel's result along the edges. -/
theorem step_agg2 : (StableHlo.after hostOps2 U (Proc.devRef .tc main_v58) : (⟨S50000x128, .f32⟩ : BufTy).Contents (Elt Ideal))
    = agg (F := Ideal) (U (Proc.devRef .tc main_v45)) (U (Proc.devRef .tc main_v3)) (U (Proc.devRef .tc main_v6)) (U (Proc.devRef .tc main_v29)) := by
  after_results_simp
  rfl

/-- The stretch after kernel 2 places the next bias vector as a row. -/
theorem step_bias2 : (StableHlo.after hostOps2 U (Proc.devRef .tc main_v59) : Mat 1 128) = row128 (U (Proc.devRef .tc main_arg6)) := by
  after_results
  rfl

set_option maxHeartbeats 4000000 in
/-- The stretch after kernel 3 aggregates the kernel's result along the edges. -/
theorem step_agg3 : (StableHlo.after hostOps3 U (Proc.devRef .tc main_v73) : (⟨S50000x128, .f32⟩ : BufTy).Contents (Elt Ideal))
    = agg (F := Ideal) (U (Proc.devRef .tc main_v60)) (U (Proc.devRef .tc main_v3)) (U (Proc.devRef .tc main_v6)) (U (Proc.devRef .tc main_v29)) := by
  after_results_simp
  rfl

/-- The stretch after kernel 3 places the next bias vector as a row. -/
theorem step_bias3 : (StableHlo.after hostOps3 U (Proc.devRef .tc main_v74) : Mat 1 128) = row128 (U (Proc.devRef .tc main_arg8)) := by
  after_results
  rfl

set_option maxHeartbeats 4000000 in
/-- The stretch after kernel 4 takes the mean of the node rows over each graph. -/
theorem step_pool : (StableHlo.after hostOps4 U (Proc.devRef .tc main_v87) : (⟨S128x128, .f32⟩ : BufTy).Contents (Elt Ideal))
    = pool (F := Ideal) (U (Proc.devRef .tc main_v75)) (U (Proc.devRef .tc main_arg2)) := by
  after_results_simp
  rfl

/-- The stretch after kernel 4 places the head bias vector as a row. -/
theorem step_bias4 : (StableHlo.after hostOps4 U (Proc.devRef .tc main_v88) : Mat 1 12) = row12 (U (Proc.devRef .tc main_arg10)) := by
  after_results
  rfl

end Stretches

/-! ## The stages of the run -/

variable (m : (ℓ : Loc nD τ sig) → Buf (Elt Ideal) ℓ) (ρ : Dev nD → PrngReg) (c : Dev nD)

/-- An argument no stretch computes and no earlier kernel owns is read as launched. -/
theorem arg_at5 (r : Ref sig .tc) (h5 : r ∉ hostOps1_W) (h4 : ∀ w, Pipeline.arrRef spec0 w ≠ r)
    (h2 : r ∉ hostOps0_2_W) (h1 : r ∉ hostOps0_1_W) (h0 : r ∉ hostOps0_W) :
    W5 m ρ c (Proc.devRef .tc r) = m ((c : Thread nD τ).loc r) :=
  (W5_W3 m ρ c r h5 h4).trans (W3_launch m ρ c r h2 h1 h0)
theorem arg_at7 (r : Ref sig .tc) (h7 : r ∉ hostOps2_W) (h6 : ∀ w, Pipeline.arrRef spec1 w ≠ r) (h5 : r ∉ hostOps1_W)
    (h4 : ∀ w, Pipeline.arrRef spec0 w ≠ r) (h2 : r ∉ hostOps0_2_W) (h1 : r ∉ hostOps0_1_W) (h0 : r ∉ hostOps0_W) :
    W7 m ρ c (Proc.devRef .tc r) = m ((c : Thread nD τ).loc r) :=
  (W7_W5 m ρ c r h7 h6).trans (arg_at5 m ρ c r h5 h4 h2 h1 h0)
theorem arg_at9 (r : Ref sig .tc) (h9 : r ∉ hostOps3_W) (h8 : ∀ w, Pipeline.arrRef spec2 w ≠ r) (h7 : r ∉ hostOps2_W)
    (h6 : ∀ w, Pipeline.arrRef spec1 w ≠ r) (h5 : r ∉ hostOps1_W) (h4 : ∀ w, Pipeline.arrRef spec0 w ≠ r)
    (h2 : r ∉ hostOps0_2_W) (h1 : r ∉ hostOps0_1_W) (h0 : r ∉ hostOps0_W) :
    W9 m ρ c (Proc.devRef .tc r) = m ((c : Thread nD τ).loc r) :=
  (W9_W7 m ρ c r h9 h8).trans (arg_at7 m ρ c r h7 h6 h5 h4 h2 h1 h0)
theorem arg_at11 (r : Ref sig .tc) (h11 : r ∉ hostOps4_W) (h10 : ∀ w, Pipeline.arrRef spec3 w ≠ r) (h9 : r ∉ hostOps3_W)
    (h8 : ∀ w, Pipeline.arrRef spec2 w ≠ r) (h7 : r ∉ hostOps2_W) (h6 : ∀ w, Pipeline.arrRef spec1 w ≠ r)
    (h5 : r ∉ hostOps1_W) (h4 : ∀ w, Pipeline.arrRef spec0 w ≠ r) (h2 : r ∉ hostOps0_2_W) (h1 : r ∉ hostOps0_1_W)
    (h0 : r ∉ hostOps0_W) :
    W11 m ρ c (Proc.devRef .tc r) = m ((c : Thread nD τ).loc r) :=
  (W11_W9 m ρ c r h11 h10).trans (arg_at9 m ρ c r h9 h8 h7 h6 h5 h4 h2 h1 h0)

/-! ### The edge arrays, when the first kernel is entered and at every later stage -/

theorem at3_row : (W3 m ρ c (Proc.devRef .tc main_v3) : (⟨S850000, .i32⟩ : BufTy).Contents (Elt Ideal)) = val_main_v3 (F := Ideal) (m ((c : Thread nD τ).loc main_arg1)) :=
  (W3_of m ρ c main_v3 (by decide)).trans ((W2_of m ρ c main_v3 (by decide)).trans (open_row (W0 m ρ c)))
theorem at3_col : (W3 m ρ c (Proc.devRef .tc main_v6) : (⟨S850000, .i32⟩ : BufTy).Contents (Elt Ideal)) = val_main_v6 (F := Ideal) (m ((c : Thread nD τ).loc main_arg1)) :=
  (W3_of m ρ c main_v6 (by decide)).trans ((W2_of m ρ c main_v6 (by decide)).trans (open_col (W0 m ρ c)))
theorem at1_gt : (W1 m ρ c (Proc.devRef .tc main_v12) : (⟨S50000, .i1⟩ : BufTy).Contents (Elt Ideal)) = val_main_v12 (F := Ideal) (m ((c : Thread nD τ).loc main_arg1)) :=
  open_gt (W0 m ρ c)
theorem at1_rs : (W1 m ρ c (Proc.devRef .tc main_v13) : (⟨S50000, .f32⟩ : BufTy).Contents (Elt Ideal)) = val_main_v13 (F := Ideal) (m ((c : Thread nD τ).loc main_arg1)) :=
  open_rs (W0 m ρ c)
theorem at1_zero : (W1 m ρ c (Proc.devRef .tc main_cst_2) : (⟨S_, .f32⟩ : BufTy).Contents (Elt Ideal)) = val_main_cst_2 (F := Ideal) :=
  open_zero (W0 m ρ c)
theorem at2_dis : (W2 m ρ c (Proc.devRef .tc main_v14) : (⟨S50000, .f32⟩ : BufTy).Contents (Elt Ideal)) = val_main_v14 (F := Ideal) (m ((c : Thread nD τ).loc main_arg1)) := by
  refine (where_dis (W1 m ρ c)).trans ?_
  rw [at1_gt m ρ c, at1_rs m ρ c, at1_zero m ρ c]
  rfl
theorem at2_row : (W2 m ρ c (Proc.devRef .tc main_v3) : (⟨S850000, .i32⟩ : BufTy).Contents (Elt Ideal)) = val_main_v3 (F := Ideal) (m ((c : Thread nD τ).loc main_arg1)) :=
  (W2_of m ρ c main_v3 (by decide)).trans (open_row (W0 m ρ c))
theorem at2_col : (W2 m ρ c (Proc.devRef .tc main_v6) : (⟨S850000, .i32⟩ : BufTy).Contents (Elt Ideal)) = val_main_v6 (F := Ideal) (m ((c : Thread nD τ).loc main_arg1)) :=
  (W2_of m ρ c main_v6 (by decide)).trans (open_col (W0 m ρ c))
theorem at3_norm : (W3 m ρ c (Proc.devRef .tc main_v29) : (⟨S850000, .f32⟩ : BufTy).Contents (Elt Ideal)) = val_main_v29 (F := Ideal) (m ((c : Thread nD τ).loc main_arg1)) := by
  refine (edge_coeff (W2 m ρ c)).trans ?_
  rw [at2_dis m ρ c, at2_row m ρ c, at2_col m ρ c]
  rfl

theorem at4_row : (W4 m ρ c (Proc.devRef .tc main_v3) : (⟨S850000, .i32⟩ : BufTy).Contents (Elt Ideal)) = val_main_v3 (F := Ideal) (m ((c : Thread nD τ).loc main_arg1)) :=
  (W4_of_ne m ρ c main_v3 (by decide)).trans (at3_row m ρ c)
theorem at6_row : (W6 m ρ c (Proc.devRef .tc main_v3) : (⟨S850000, .i32⟩ : BufTy).Contents (Elt Ideal)) = val_main_v3 (F := Ideal) (m ((c : Thread nD τ).loc main_arg1)) :=
  (W6_of_ne m ρ c main_v3 (by decide)).trans ((W5_W3 m ρ c main_v3 (by decide) (by decide)).trans (at3_row m ρ c))
theorem at8_row : (W8 m ρ c (Proc.devRef .tc main_v3) : (⟨S850000, .i32⟩ : BufTy).Contents (Elt Ideal)) = val_main_v3 (F := Ideal) (m ((c : Thread nD τ).loc main_arg1)) :=
  (W8_of_ne m ρ c main_v3 (by decide)).trans ((W7_W5 m ρ c main_v3 (by decide) (by decide)).trans
    ((W5_W3 m ρ c main_v3 (by decide) (by decide)).trans (at3_row m ρ c)))

theorem at4_col : (W4 m ρ c (Proc.devRef .tc main_v6) : (⟨S850000, .i32⟩ : BufTy).Contents (Elt Ideal)) = val_main_v6 (F := Ideal) (m ((c : Thread nD τ).loc main_arg1)) :=
  (W4_of_ne m ρ c main_v6 (by decide)).trans (at3_col m ρ c)
theorem at6_col : (W6 m ρ c (Proc.devRef .tc main_v6) : (⟨S850000, .i32⟩ : BufTy).Contents (Elt Ideal)) = val_main_v6 (F := Ideal) (m ((c : Thread nD τ).loc main_arg1)) :=
  (W6_of_ne m ρ c main_v6 (by decide)).trans ((W5_W3 m ρ c main_v6 (by decide) (by decide)).trans (at3_col m ρ c))
theorem at8_col : (W8 m ρ c (Proc.devRef .tc main_v6) : (⟨S850000, .i32⟩ : BufTy).Contents (Elt Ideal)) = val_main_v6 (F := Ideal) (m ((c : Thread nD τ).loc main_arg1)) :=
  (W8_of_ne m ρ c main_v6 (by decide)).trans ((W7_W5 m ρ c main_v6 (by decide) (by decide)).trans
    ((W5_W3 m ρ c main_v6 (by decide) (by decide)).trans (at3_col m ρ c)))

theorem at4_norm : (W4 m ρ c (Proc.devRef .tc main_v29) : (⟨S850000, .f32⟩ : BufTy).Contents (Elt Ideal)) = val_main_v29 (F := Ideal) (m ((c : Thread nD τ).loc main_arg1)) :=
  (W4_of_ne m ρ c main_v29 (by decide)).trans (at3_norm m ρ c)
theorem at6_norm : (W6 m ρ c (Proc.devRef .tc main_v29) : (⟨S850000, .f32⟩ : BufTy).Contents (Elt Ideal)) = val_main_v29 (F := Ideal) (m ((c : Thread nD τ).loc main_arg1)) :=
  (W6_of_ne m ρ c main_v29 (by decide)).trans ((W5_W3 m ρ c main_v29 (by decide) (by decide)).trans (at3_norm m ρ c))
theorem at8_norm : (W8 m ρ c (Proc.devRef .tc main_v29) : (⟨S850000, .f32⟩ : BufTy).Contents (Elt Ideal)) = val_main_v29 (F := Ideal) (m ((c : Thread nD τ).loc main_arg1)) :=
  (W8_of_ne m ρ c main_v29 (by decide)).trans ((W7_W5 m ρ c main_v29 (by decide) (by decide)).trans
    ((W5_W3 m ρ c main_v29 (by decide) (by decide)).trans (at3_norm m ρ c)))

/-! ### Kernel 1 and the stretch after it -/

theorem at4_xw : (W4 m ρ c (Proc.devRef .tc main_v30) : Mat 50000 128) = mm (n := 50000) (k := 128) (d := 128) (m ((c : Thread nD τ).loc main_arg0)) (m ((c : Thread nD τ).loc main_arg3)) := by
  refine (W4_arr m ρ c 2).trans ((Cert.Gcn.Region0.arr (V3 m ρ) c).trans ?_)
  show mm (n := 50000) (k := 128) (d := 128) (W3 m ρ c (Proc.devRef .tc main_arg0)) (W3 m ρ c (Proc.devRef .tc main_arg3)) = _
  rw [W3_launch m ρ c main_arg0 (by decide) (by decide) (by decide), W3_launch m ρ c main_arg3 (by decide) (by decide) (by decide)]

theorem at5_agg : (W5 m ρ c (Proc.devRef .tc main_v43) : Mat 50000 128) = a0 (m ((c : Thread nD τ).loc main_arg0)) (m ((c : Thread nD τ).loc main_arg1)) (m ((c : Thread nD τ).loc main_arg3)) := by
  refine (step_agg1 (W4 m ρ c)).trans ?_
  rw [at4_xw m ρ c, at4_row m ρ c, at4_col m ρ c, at4_norm m ρ c]
  rfl

theorem at5_bias : (W5 m ρ c (Proc.devRef .tc main_v44) : Mat 1 128) = row128 (m ((c : Thread nD τ).loc main_arg4)) := by
  refine (step_bias1 (W4 m ρ c)).trans ?_
  rw [(W4_of_ne m ρ c main_arg4 (by decide)).trans (W3_launch m ρ c main_arg4 (by decide) (by decide) (by decide))]

theorem at5_w : (W5 m ρ c (Proc.devRef .tc main_arg5) : Mat 128 128) = (m ((c : Thread nD τ).loc main_arg5)) :=
  arg_at5 m ρ c main_arg5 (by decide) (by decide) (by decide) (by decide) (by decide)

/-! ### Kernel 2 and the stretch after it -/

theorem at6_xw : (W6 m ρ c (Proc.devRef .tc main_v45) : Mat 50000 128)
    = mm (n := 50000) (k := 128) (d := 128) (relu (addRow (a0 (m ((c : Thread nD τ).loc main_arg0)) (m ((c : Thread nD τ).loc main_arg1)) (m ((c : Thread nD τ).loc main_arg3))) (row128 (m ((c : Thread nD τ).loc main_arg4))))) (m ((c : Thread nD τ).loc main_arg5)) := by
  refine (W6_arr m ρ c 3).trans ((Cert.Gcn.Region1.arr (V5 m ρ) c).trans ?_)
  show mm (n := 50000) (k := 128) (d := 128) (relu (addRow (n := 50000) (k := 128) (W5 m ρ c (Proc.devRef .tc main_v43)) (W5 m ρ c (Proc.devRef .tc main_v44)))) (W5 m ρ c (Proc.devRef .tc main_arg5)) = _
  rw [at5_agg m ρ c, at5_bias m ρ c, at5_w m ρ c]

theorem at7_agg : (W7 m ρ c (Proc.devRef .tc main_v58) : Mat 50000 128) = a1 (m ((c : Thread nD τ).loc main_arg0)) (m ((c : Thread nD τ).loc main_arg1)) (m ((c : Thread nD τ).loc main_arg3)) (m ((c : Thread nD τ).loc main_arg4)) (m ((c : Thread nD τ).loc main_arg5)) := by
  refine (step_agg2 (W6 m ρ c)).trans ?_
  rw [at6_xw m ρ c, at6_row m ρ c, at6_col m ρ c, at6_norm m ρ c]
  rfl

theorem at7_bias : (W7 m ρ c (Proc.devRef .tc main_v59) : Mat 1 128) = row128 (m ((c : Thread nD τ).loc main_arg6)) := by
  refine (step_bias2 (W6 m ρ c)).trans ?_
  rw [(W6_of_ne m ρ c main_arg6 (by decide)).trans (arg_at5 m ρ c main_arg6 (by decide) (by decide) (by decide) (by decide) (by decide))]

theorem at7_w : (W7 m ρ c (Proc.devRef .tc main_arg7) : Mat 128 128) = (m ((c : Thread nD τ).loc main_arg7)) :=
  arg_at7 m ρ c main_arg7 (by decide) (by decide) (by decide) (by decide) (by decide) (by decide) (by decide)

/-! ### Kernel 3 and the stretch after it -/

theorem at8_xw : (W8 m ρ c (Proc.devRef .tc main_v60) : Mat 50000 128)
    = mm (n := 50000) (k := 128) (d := 128) (relu (addRow (a1 (m ((c : Thread nD τ).loc main_arg0)) (m ((c : Thread nD τ).loc main_arg1)) (m ((c : Thread nD τ).loc main_arg3)) (m ((c : Thread nD τ).loc main_arg4)) (m ((c : Thread nD τ).loc main_arg5))) (row128 (m ((c : Thread nD τ).loc main_arg6))))) (m ((c : Thread nD τ).loc main_arg7)) := by
  refine (W8_arr m ρ c 3).trans ((Cert.Gcn.Region2.arr (V7 m ρ) c).trans ?_)
  show mm (n := 50000) (k := 128) (d := 128) (relu (addRow (n := 50000) (k := 128) (W7 m ρ c (Proc.devRef .tc main_v58)) (W7 m ρ c (Proc.devRef .tc main_v59)))) (W7 m ρ c (Proc.devRef .tc main_arg7)) = _
  rw [at7_agg m ρ c, at7_bias m ρ c, at7_w m ρ c]

theorem at9_agg : (W9 m ρ c (Proc.devRef .tc main_v73) : Mat 50000 128) = a2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (step_agg3 (W8 m ρ c)).trans ?_
  rw [at8_xw m ρ c, at8_row m ρ c, at8_col m ρ c, at8_norm m ρ c]
  rfl

theorem at9_bias : (W9 m ρ c (Proc.devRef .tc main_v74) : Mat 1 128) = row128 (m ((c : Thread nD τ).loc main_arg8)) := by
  refine (step_bias3 (W8 m ρ c)).trans ?_
  rw [(W8_of_ne m ρ c main_arg8 (by decide)).trans (arg_at7 m ρ c main_arg8 (by decide) (by decide) (by decide) (by decide) (by decide) (by decide) (by decide))]

/-! ### Kernel 4 and the stretch after it -/

theorem at10_h : (W10 m ρ c (Proc.devRef .tc main_v75) : Mat 50000 128) = h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Cert.Gcn.Region3.arr (V9 m ρ) c).trans ?_)
  show relu (addRow (n := 50000) (k := 128) (W9 m ρ c (Proc.devRef .tc main_v73)) (W9 m ρ c (Proc.devRef .tc main_v74))) = _
  rw [at9_agg m ρ c, at9_bias m ρ c]
  rfl

theorem at11_pool : (W11 m ρ c (Proc.devRef .tc main_v87) : Mat 128 128) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (step_pool (W10 m ρ c)).trans ?_
  rw [at10_h m ρ c, (W10_of_ne m ρ c main_arg2 (by decide)).trans (arg_at9 m ρ c main_arg2 (by decide) (by decide) (by decide) (by decide) (by decide) (by decide) (by decide) (by decide) (by decide))]
  rfl

theorem at11_bias : (W11 m ρ c (Proc.devRef .tc main_v88) : Mat 1 12) = row12 (m ((c : Thread nD τ).loc main_arg10)) := by
  refine (step_bias4 (W10 m ρ c)).trans ?_
  rw [(W10_of_ne m ρ c main_arg10 (by decide)).trans (arg_at9 m ρ c main_arg10 (by decide) (by decide) (by decide) (by decide) (by decide) (by decide) (by decide) (by decide) (by decide))]

theorem at11_w : (W11 m ρ c (Proc.devRef .tc main_arg9) : Mat 128 12) = (m ((c : Thread nD τ).loc main_arg9)) :=
  arg_at11 m ρ c main_arg9 (by decide) (by decide) (by decide) (by decide) (by decide) (by decide) (by decide) (by decide) (by decide) (by decide) (by decide)

/-! ### Kernel 5: the result -/

/-- The result buffer after the run is the composed function of the arguments as launched. -/
theorem result : (W12 m ρ c (Proc.devRef .tc main_v89) : Mat 128 12)
    = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ((Cert.Gcn.Region4.arr (V11 m ρ) c).trans ?_)
  show addRow (n := 128) (k := 12) (mm (n := 128) (k := 128) (d := 12) (W11 m ρ c (Proc.devRef .tc main_v87)) (W11 m ρ c (Proc.devRef .tc main_arg9))) (W11 m ρ c (Proc.devRef .tc main_v88)) = _
  rw [at11_pool m ρ c, at11_w m ρ c, at11_bias m ρ c]
  rfl

end Cert.Gcn.KernelValue

end
-- ==== Proof.lean ====
/-
  The kernel program and its reference compute one function on the extended reals.

  Both are a three-layer graph convolution with a graph mean and a linear head.  The kernel program runs its dense steps
  (matrix product; bias row, floor at zero and matrix product; bias row and floor at zero; matrix product and bias row) as
  five launched kernels on blocks of rows and leaves the edge aggregation and the graph mean to host operations; the
  reference is host operations throughout.  A change to a narrower float format changes no extended real, a matrix
  unit's product into the zero accumulator and the host's contraction are the same sum, and every dense step computes a
  row of its result from that row of its operand, so each kernel leaves its array at the dense step of the whole arrays.
  The host operations between the kernels are the reference's own.  Hence both programs end with their result array at
  one composed function of the eleven arguments (`Cert.Gcn.spec`), whatever the arguments hold: no sum is regrouped and
  nothing is cancelled, so the finiteness of the inputs is never used.
  The three programs' runs terminate without a fault with their arguments unchanged; the idealized kernel is the printed
  kernel read on the extended reals, no operation rewritten.
-/
import proofs.«166641_j72748156059703_1_alg».proof.Defs
import proofs.«166641_j72748156059703_1_alg».proof.Proof.Gen.Kernel
import proofs.«166641_j72748156059703_1_alg».proof.Proof.Gen.Kernel.Skeleton
import proofs.«166641_j72748156059703_1_alg».proof.Proof.Gen.Kernel.Launch
import proofs.«166641_j72748156059703_1_alg».proof.Proof.Gen.Kernel.Points
import proofs.«166641_j72748156059703_1_alg».proof.Proof.Gen.Kernel.Frame
import proofs.«166641_j72748156059703_1_alg».proof.Proof.Gen.KernelIdeal
import proofs.«166641_j72748156059703_1_alg».proof.Proof.Gen.KernelIdeal.Skeleton
import proofs.«166641_j72748156059703_1_alg».proof.Proof.Gen.KernelIdeal.Launch
import proofs.«166641_j72748156059703_1_alg».proof.Proof.Gen.KernelIdeal.Points
import proofs.«166641_j72748156059703_1_alg».proof.Proof.Gen.KernelIdeal.Frame
import proofs.«166641_j72748156059703_1_alg».proof.Proof.Gen.ReferenceIdeal
import proofs.«166641_j72748156059703_1_alg».proof.Proof.Gen.Pre_finite_inputs
import proofs.«166641_j72748156059703_1_alg».proof.Proof.RefRunPatched
import proofs.«166641_j72748156059703_1_alg».proof.Proof.RefReadPatched
import proofs.«166641_j72748156059703_1_alg».proof.Proof.KernelRun
import proofs.«166641_j72748156059703_1_alg».proof.Proof.Glue
import proofs.«166641_j72748156059703_1_alg».proof.Proof.KernelValue
import Idealize.ShloMosaic.Adequacy
import Idealize.ShloMosaic.Init

noncomputable section

namespace Cert.Proof

open Idealize.ShloMosaic Idealize.SL.Sem

/-- The printed kernel's run terminates without a fault and leaves its arguments unchanged. -/
theorem frame_k [Cert.Kernel.Facts] [Cert.Pre_finite_inputs.Facts] : Cert.frame_Kernel :=
  fun m ρ _ => Cert.Kernel.Gen.frame m ρ

/-- So does the kernel's run read on the extended reals. -/
theorem frame_ki [Cert.KernelIdeal.Facts] [Cert.Pre_finite_inputs.Facts] : Cert.frame_KernelIdeal :=
  fun m ρ _ => Cert.KernelIdeal.Gen.frame m ρ

/-- So does the reference's: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories agreeing on the arguments both programs end with their result array at the composed function of the
    arguments: the kernel program by following its buffers through the five kernels, the reference stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Gcn.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Gcn.KernelValue.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v99_eq, Cert.Gcn.ref_v99, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
